-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x64 : Shape := ⟨2, ![10000, 64]⟩
abbrev S10000x10000 : Shape := ⟨2, ![10000, 10000]⟩
abbrev S5000x10000 : Shape := ⟨2, ![5000, 10000]⟩
abbrev S128x8 : Shape := ⟨2, ![128, 8]⟩
abbrev S8 : Shape := ⟨1, ![8]⟩
abbrev S8x1 : Shape := ⟨2, ![8, 1]⟩
abbrev S1 : Shape := ⟨1, ![1]⟩
abbrev S16384 : Shape := ⟨1, ![16384]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S5000x10000 : S_.BroadcastsInDim S5000x10000 (![] : Fin 0 → Fin S5000x10000.rank)
  reducesTo_S5000x10000_S_d0_1 : S5000x10000.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S8 .f32) (main_arg5 : FVec F S8x1 .f32) (main_arg6 : FVec F S1 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg5
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S10000x64 .f32) (main_arg1 : FVec F S10000x10000 .f32) (main_arg2 : FVec F S5000x10000 .f32) (main_arg3 : FVec F S128x8 .f32) (main_arg4 : FVec F S8 .f32) (main_arg5 : FVec F S8x1 .f32) (main_arg6 : FVec F S1 .f32) (main_arg7 : IVec S16384 32) (main_arg8 : IVec S16384 32) : IVec S_ 1 :=
  let main_v0 : FVec F S10000x64 .f32 := Host.absf main_arg0
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S5000x10000 .f32 := Host.absf main_arg2
  let main_cst_2 : FVec F S_ .f32 := constant S_ .f32 0x7F800000#32
  let main_v10 : FVec F S5000x10000 .f32 := broadcastInDim S5000x10000 ![] bcast_S_S5000x10000 main_cst_2
  let main_v11 : IVec S5000x10000 1 := cmpf .olt main_v9 main_v10
  let main_c_3 : IVec S_ 1 := constantI S_ 1 1#1
  let main_v12 : IVec S_ 1 := (fun x v => Host.reduce IntOp.andi x v reducesTo_S5000x10000_S_d0_1 h_S_) main_v11 main_c_3
  let main_v13 : IVec S_ 1 := andi main_v8 main_v12
  let main_v14 : FVec F S128x8 .f32 := Host.absf main_arg3
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg4 main_arg5 main_arg6 main_v13 main_v16
-- ==== Kernel.lean ====
abbrev S10000x64 : Shape := ⟨2, ![10000, 64]⟩
abbrev S10000x10000 : Shape := ⟨2, ![10000, 10000]⟩
abbrev S5000x10000 : Shape := ⟨2, ![5000, 10000]⟩
abbrev S128x8 : Shape := ⟨2, ![128, 8]⟩
abbrev S8 : Shape := ⟨1, ![8]⟩
abbrev S8x1 : Shape := ⟨2, ![8, 1]⟩
abbrev S1 : Shape := ⟨1, ![1]⟩
abbrev S16384 : Shape := ⟨1, ![16384]⟩
abbrev S200x10000 : Shape := ⟨2, ![200, 10000]⟩
abbrev S200x64 : Shape := ⟨2, ![200, 64]⟩
abbrev S200 : Shape := ⟨1, ![200]⟩
abbrev S200x1 : Shape := ⟨2, ![200, 1]⟩
abbrev S5000x64 : Shape := ⟨2, ![5000, 64]⟩
abbrev S_ : Shape := ⟨0, ![]⟩
abbrev S16384x1 : Shape := ⟨2, ![16384, 1]⟩
abbrev S16384x64 : Shape := ⟨2, ![16384, 64]⟩
abbrev S64x8 : Shape := ⟨2, ![64, 8]⟩
abbrev S4096x64 : Shape := ⟨2, ![4096, 64]⟩
abbrev S4096x1 : Shape := ⟨2, ![4096, 1]⟩
abbrev S4096x8 : Shape := ⟨2, ![4096, 8]⟩
abbrev S1x8 : Shape := ⟨2, ![1, 8]⟩
abbrev S1x1 : Shape := ⟨2, ![1, 1]⟩

abbrev nBuf : Space → Nat
  | .hbm => 33
  | .vmem => 21
  | .smem => 0
  | _ => 0

abbrev bufTy : (tb : Table) → Fin (tcTables nBuf tb) → BufTy
  | .hbm, ⟨0, _⟩ => ⟨S10000x64, .f32⟩
  | .hbm, ⟨1, _⟩ => ⟨S10000x10000, .f32⟩
  | .hbm, ⟨2, _⟩ => ⟨S5000x10000, .f32⟩
  | .hbm, ⟨3, _⟩ => ⟨S128x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S16384, .i32⟩
  | .hbm, ⟨8, _⟩ => ⟨S16384, .i32⟩
  | .hbm, ⟨9, _⟩ => ⟨S10000x64, .bf16⟩
  | .hbm, ⟨10, _⟩ => ⟨S10000x64, .bf16⟩
  | .hbm, ⟨11, _⟩ => ⟨S5000x64, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x64, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x64, .f32⟩
  | .hbm, ⟨30, _⟩ => ⟨S64x8, .f32⟩
  | .hbm, ⟨31, _⟩ => ⟨S64x8, .f32⟩
  | .hbm, ⟨32, _⟩ => ⟨S16384x1, .f32⟩
  | .local _ .vmem, ⟨0, _⟩ => ⟨S200x10000, .f32⟩
  | .local _ .vmem, ⟨1, _⟩ => ⟨S200x10000, .f32⟩
  | .local _ .vmem, ⟨2, _⟩ => ⟨S10000x64, .bf16⟩
  | .local _ .vmem, ⟨3, _⟩ => ⟨S200x64, .bf16⟩
  | .local _ .vmem, ⟨4, _⟩ => ⟨S200x64, .bf16⟩
  | .local _ .vmem, ⟨5, _⟩ => ⟨S200x10000, .f32⟩
  | .local _ .vmem, ⟨6, _⟩ => ⟨S200x10000, .f32⟩
  | .local _ .vmem, ⟨7, _⟩ => ⟨S10000x64, .bf16⟩
  | .local _ .vmem, ⟨8, _⟩ => ⟨S200x64, .f32⟩
  | .local _ .vmem, ⟨9, _⟩ => ⟨S200x64, .f32⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S4096x64, .f32⟩
  | .local _ .vmem, ⟨14, _⟩ => ⟨S64x8, .f32⟩
  | .local _ .vmem, ⟨15, _⟩ => ⟨S64x8, .f32⟩
  | .local _ .vmem, ⟨16, _⟩ => ⟨S8, .f32⟩
  | .local _ .vmem, ⟨17, _⟩ => ⟨S8x1, .f32⟩
  | .local _ .vmem, ⟨18, _⟩ => ⟨S1, .f32⟩
  | .local _ .vmem, ⟨19, _⟩ => ⟨S4096x1, .f32⟩
  | .local _ .vmem, ⟨20, _⟩ => ⟨S4096x1, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4096x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  natLt_1_32 : 1 < 32
  reduces_S200x10000_S200 : S200x10000.Reduces [1] S200
  shapeCasts_S200_S200x1 : S200.ShapeCasts S200x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S200x1_S200x64 : S200x1.Broadcasts S200x64
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  bcast_S_S16384 : S_.BroadcastsInDim S16384 (![] : Fin 0 → Fin S16384.rank)
  bcast_S16384_S16384x1_0 : S16384.BroadcastsInDim S16384x1 (![0] : Fin 1 → Fin S16384x1.rank)
  slices_S128x8_S64x8_0_0 : S128x8.Slices ![0, 0] S64x8
  slices_S128x8_S64x8_64_0 : S128x8.Slices ![64, 0] S64x8
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S8_S8_0 : ∀ a, (![0] : Fin 1 → Nat) a + S8.size a ≤ S8.size a
  h_S8 : 0 < S8.numel
  shapeCasts_S8_S1x8 : S8.ShapeCasts S1x8
  broadcasts_S1x8_S4096x8 : S1x8.Broadcasts S4096x8
  inb_S8x1_S8x1_0_0 : ∀ a, (![0, 0] : Fin 2 → Nat) a + S8x1.size a ≤ S8x1.size a
  h_S8x1 : 0 < S8x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S200x10000_S10000x64_S200x64_1_0_0_1_n_n_wf : DotDims.WF S200x10000 S10000x64 S200x64 [1] [0] [0] [1] [] []
  gather_S5000x64_S16384x1_S16384x64_1_0_n_n_0_1_164_wf : GatherDims.WF S5000x64 S16384x1 S16384x64 [1] [0] [] [0] [] 1 ![1, 64]
  gather_S10000x64_S16384x1_S16384x64_1_0_n_n_0_1_164_wf : GatherDims.WF S10000x64 S16384x1 S16384x64 [1] [0] [] [0] [] 1 ![1, 64]
  dot_S4096x64_S64x8_S4096x8_1_0_0_1_n_n_wf : DotDims.WF S4096x64 S64x8 S4096x8 [1] [0] [0] [1] [] []
  dot_S4096x8_S8x1_S4096x1_1_0_0_1_n_n_wf : DotDims.WF S4096x8 S8x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .bf16 = 32 ∨ (Rect.block (s := S10000x64) S10000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S10000x64.size a
  hwx0_2 : ∀ i : grid0.Coords, EltTy.bits .bf16 = 32 ∨ (Rect.block (s := S10000x64) S200x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S5000x10000.size a
  hwx1_0 : ∀ i : grid1.Coords, EltTy.bits .f32 = 32 ∨ (Rect.block (s := S5000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x64.size a ≤ S5000x64.size a
  hwx1_2 : ∀ i : grid1.Coords, EltTy.bits .f32 = 32 ∨ (Rect.block (s := S5000x64) S200x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S16384x64.size a
  hwx2_0 : ∀ i : grid2.Coords, EltTy.bits .f32 = 32 ∨ (Rect.block (s := S16384x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S16384x64.size a
  hwx2_1 : ∀ i : grid2.Coords, EltTy.bits .f32 = 32 ∨ (Rect.block (s := S16384x64) S4096x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x8.size a ≤ S64x8.size a
  hwx2_2 : ∀ i : grid2.Coords, EltTy.bits .f32 = 32 ∨ (Rect.block (s := S64x8) S64x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x8.size a ≤ S64x8.size a
  hwx2_3 : ∀ i : grid2.Coords, EltTy.bits .f32 = 32 ∨ (Rect.block (s := S64x8) S64x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8.size a ≤ S8.size a
  hwx2_4 : ∀ i : grid2.Coords, EltTy.bits .f32 = 32 ∨ (Rect.block (s := S8) S8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x1.size a ≤ S8x1.size a
  hwx2_5 : ∀ i : grid2.Coords, EltTy.bits .f32 = 32 ∨ (Rect.block (s := S8x1) S8x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4096x1.size a ≤ S16384x1.size a
  hwx2_7 : ∀ i : grid2.Coords, EltTy.bits .f32 = 32 ∨ (Rect.block (s := S16384x1) S4096x1.size (cc2_transform_7 i) (hinb2_7 i)).WholeWords (EltTy.packing .f32)

variable [Facts₀]

def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def gather_S5000x64_S16384x1_S16384x64_1_0_n_n_0_1_164 : GatherDims S5000x64 S16384x1 S16384x64 where
  offsetDims := [1]
  collapsedSliceDims := [0]
  operandBatchingDims := []
  startIndicesBatchingDims := []
  startIndexMap := [0]
  indexVectorDim := 1
  sliceSizes := ![1, 64]
  wf := gather_S5000x64_S16384x1_S16384x64_1_0_n_n_0_1_164_wf
def gather_S10000x64_S16384x1_S16384x64_1_0_n_n_0_1_164 : GatherDims S10000x64 S16384x1 S16384x64 where
  offsetDims := [1]
  collapsedSliceDims := [0]
  operandBatchingDims := []
  startIndicesBatchingDims := []
  startIndexMap := [0]
  indexVectorDim := 1
  sliceSizes := ![1, 64]
  wf := gather_S10000x64_S16384x1_S16384x64_1_0_n_n_0_1_164_wf
def dot_S4096x64_S64x8_S4096x8_1_0_0_1_n_n : DotDims S4096x64 S64x8 S4096x8 where
  lhsContracting := [1]
  rhsContracting := [0]
  lhsNonContracting := [0]
  rhsNonContracting := [1]
  lhsBatch := []
  rhsBatch := []
  wf := dot_S4096x64_S64x8_S4096x8_1_0_0_1_n_n_wf
def dot_S4096x8_S8x1_S4096x1_1_0_0_1_n_n : DotDims S4096x8 S8x1 S4096x1 where
  lhsContracting := [1]
  rhsContracting := [0]
  lhsNonContracting := [0]
  rhsNonContracting := [1]
  lhsBatch := []
  rhsBatch := []
  wf := dot_S4096x8_S8x1_S4096x1_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S200x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S200x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S64x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S64x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S8x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19) S4096x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x64 : Shape := ⟨2, ![10000, 64]⟩
abbrev S10000x10000 : Shape := ⟨2, ![10000, 10000]⟩
abbrev S5000x10000 : Shape := ⟨2, ![5000, 10000]⟩
abbrev S128x8 : Shape := ⟨2, ![128, 8]⟩
abbrev S8 : Shape := ⟨1, ![8]⟩
abbrev S8x1 : Shape := ⟨2, ![8, 1]⟩
abbrev S1 : Shape := ⟨1, ![1]⟩
abbrev S16384 : Shape := ⟨1, ![16384]⟩
abbrev S_ : Shape := ⟨0, ![]⟩
abbrev S10000 : Shape := ⟨1, ![10000]⟩
abbrev S10000x1 : Shape := ⟨2, ![10000, 1]⟩
abbrev S5000 : Shape := ⟨1, ![5000]⟩
abbrev S5000x64 : Shape := ⟨2, ![5000, 64]⟩
abbrev S5000x1 : Shape := ⟨2, ![5000, 1]⟩
abbrev S16384x1 : Shape := ⟨2, ![16384, 1]⟩
abbrev S16384x64 : Shape := ⟨2, ![16384, 64]⟩
abbrev S16384x128 : Shape := ⟨2, ![16384, 128]⟩
abbrev S16384x8 : Shape := ⟨2, ![16384, 8]⟩
abbrev S1x8 : Shape := ⟨2, ![1, 8]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S10000x64, .f32⟩
  | .hbm, ⟨1, _⟩ => ⟨S10000x10000, .f32⟩
  | .hbm, ⟨2, _⟩ => ⟨S5000x10000, .f32⟩
  | .hbm, ⟨3, _⟩ => ⟨S128x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S16384, .i32⟩
  | .hbm, ⟨8, _⟩ => ⟨S16384, .i32⟩
  | .hbm, ⟨9, _⟩ => ⟨S_, .f32⟩
  | .hbm, ⟨10, _⟩ => ⟨S10000x10000, .f32⟩
  | .hbm, ⟨11, _⟩ => ⟨S10000x10000, .i1⟩
  | .hbm, ⟨12, _⟩ => ⟨S10000x10000, .f32⟩
  | .hbm, ⟨13, _⟩ => ⟨S_, .f32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S10000x64, .f32⟩
  | .hbm, ⟨19, _⟩ => ⟨S10000x1, .f32⟩
  | .hbm, ⟨20, _⟩ => ⟨S10000x64, .f32⟩
  | .hbm, ⟨21, _⟩ => ⟨S10000x64, .f32⟩
  | .hbm, ⟨22, _⟩ => ⟨S_, .f32⟩
  | .hbm, ⟨23, _⟩ => ⟨S5000, .f32⟩
  | .hbm, ⟨24, _⟩ => ⟨S5000x64, .f32⟩
  | .hbm, ⟨25, _⟩ => ⟨S5000x1, .f32⟩
  | .hbm, ⟨26, _⟩ => ⟨S5000x64, .f32⟩
  | .hbm, ⟨27, _⟩ => ⟨S5000x64, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x64, .f32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S16384x1, .i32⟩
  | .hbm, ⟨45, _⟩ => ⟨S16384x64, .f32⟩
  | .hbm, ⟨46, _⟩ => ⟨S16384x128, .f32⟩
  | .hbm, ⟨47, _⟩ => ⟨S16384x8, .f32⟩
  | .hbm, ⟨48, _⟩ => ⟨S1x8, .f32⟩
  | .hbm, ⟨49, _⟩ => ⟨S16384x8, .f32⟩
  | .hbm, ⟨50, _⟩ => ⟨S16384x8, .f32⟩
  | .hbm, ⟨51, _⟩ => ⟨S_, .f32⟩
  | .hbm, ⟨52, _⟩ => ⟨S16384x8, .f32⟩
  | .hbm, ⟨53, _⟩ => ⟨S16384x8, .f32⟩
  | .hbm, ⟨54, _⟩ => ⟨S16384x1, .f32⟩
  | .hbm, ⟨55, _⟩ => ⟨S1x1, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_cst : Ref sig .tc := ⟨.hbm, 51, rfl⟩
abbrev main_call0_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  reducesTo_S5000x10000_S5000_d1 : S5000x10000.ReducesTo [1] S5000
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x64_S16384x64_S16384x128_d1 : Shape.Concatenates [S16384x64, S16384x64] S16384x128 1
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S10000x10000_S10000x64_S10000x64_1_0_0_1_n_n_wf : DotDims.WF S10000x10000 S10000x64 S10000x64 [1] [0] [0] [1] [] []
  dot_S5000x10000_S10000x64_S5000x64_1_0_0_1_n_n_wf : DotDims.WF S5000x10000 S10000x64 S5000x64 [1] [0] [0] [1] [] []
  gather_S5000x64_S16384x1_S16384x64_1_0_n_n_0_1_164_wf : GatherDims.WF S5000x64 S16384x1 S16384x64 [1] [0] [] [0] [] 1 ![1, 64]
  gather_S10000x64_S16384x1_S16384x64_1_0_n_n_0_1_164_wf : GatherDims.WF S10000x64 S16384x1 S16384x64 [1] [0] [] [0] [] 1 ![1, 64]
  dot_S16384x128_S128x8_S16384x8_1_0_0_1_n_n_wf : DotDims.WF S16384x128 S128x8 S16384x8 [1] [0] [0] [1] [] []
  dot_S16384x8_S8x1_S16384x1_1_0_0_1_n_n_wf : DotDims.WF S16384x8 S8x1 S16384x1 [1] [0] [0] [1] [] []

variable [Facts₀]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S5000x10000_S10000x64_S5000x64_1_0_0_1_n_n : DotDims S5000x10000 S10000x64 S5000x64 where
  lhsContracting := [1]
  rhsContracting := [0]
  lhsNonContracting := [0]
  rhsNonContracting := [1]
  lhsBatch := []
  rhsBatch := []
  wf := dot_S5000x10000_S10000x64_S5000x64_1_0_0_1_n_n_wf
def gather_S5000x64_S16384x1_S16384x64_1_0_n_n_0_1_164 : GatherDims S5000x64 S16384x1 S16384x64 where
  offsetDims := [1]
  collapsedSliceDims := [0]
  operandBatchingDims := []
  startIndicesBatchingDims := []
  startIndexMap := [0]
  indexVectorDim := 1
  sliceSizes := ![1, 64]
  wf := gather_S5000x64_S16384x1_S16384x64_1_0_n_n_0_1_164_wf
def gather_S10000x64_S16384x1_S16384x64_1_0_n_n_0_1_164 : GatherDims S10000x64 S16384x1 S16384x64 where
  offsetDims := [1]
  collapsedSliceDims := [0]
  operandBatchingDims := []
  startIndicesBatchingDims := []
  startIndexMap := [0]
  indexVectorDim := 1
  sliceSizes := ![1, 64]
  wf := gather_S10000x64_S16384x1_S16384x64_1_0_n_n_0_1_164_wf
def dot_S16384x128_S128x8_S16384x8_1_0_0_1_n_n : DotDims S16384x128 S128x8 S16384x8 where
  lhsContracting := [1]
  rhsContracting := [0]
  lhsNonContracting := [0]
  rhsNonContracting := [1]
  lhsBatch := []
  rhsBatch := []
  wf := dot_S16384x128_S128x8_S16384x8_1_0_0_1_n_n_wf
def dot_S16384x8_S8x1_S16384x1_1_0_0_1_n_n : DotDims S16384x8 S8x1 S16384x1 where
  lhsContracting := [1]
  rhsContracting := [0]
  lhsNonContracting := [0]
  rhsNonContracting := [1]
  lhsBatch := []
  rhsBatch := []
  wf := dot_S16384x8_S8x1_S16384x1_1_0_0_1_n_n_wf

class Facts : Prop extends Facts₀ where

variable [Facts]
-- ==== Proof.Spec.lean ====
/-
  What the three stages compute, index by index, on the extended reals.

  * A row-normalised product: entry (r, n) of `A · E` divided by a total of row r of `A` — either the number of
    its positive entries, but at least one (`meanByCount`), or the plain sum of the row (`meanBySum`).
  * The scoring head: for a row b, two 64-entry feature rows `g b`, `h b` meet the two halves `wa`, `wb` of a
    weight matrix, a bias is added, negative values are cut to zero, the eight results meet a weight column, a
    second bias is added, and the logistic function is taken (`score`).

  Nothing here mentions a program.
-/
import Idealize.ShloMosaic.PureOps.Ideal
import Idealize.ShloMosaic.PureOps.Ideal.Laws
import Idealize.ShloMosaic.Lib.ValueIdx

noncomputable section

open scoped BigOperators

namespace Cert.GroupScore

open Idealize.ShloMosaic Idealize.ShloMosaic.ValueIdx

/-- One if the entry is greater than zero, else zero: the comparison's bit read as a number. -/
def posBit (x : EReal) : EReal := (((Ideal.cmp .ogt x (Ideal.ofBits .f32 0x00000000#32)).toNat : ℝ) : EReal)

/-- Row r's inner products with the columns of `E`, each divided by the number of positive entries of row r of `A`,
    that number raised to one where it is smaller. -/
def meanByCount {R K N : Nat} (A : (⟨2, ![R, K]⟩ : Shape).Idx → EReal) (E : (⟨2, ![K, N]⟩ : Shape).Idx → EReal) :
    (⟨2, ![R, N]⟩ : Shape).Idx → EReal :=
  fun i => Ideal.div (∑ k : Fin K, A (ix2 (i 0) k) * E (ix2 k (i 1)))
    (max (∑ k : Fin K, posBit (A (ix2 (i 0) k))) (Ideal.ofBits .f32 0x3F800000#32))

/-- Row r's inner products with the columns of `E`, each divided by the sum of row r of `A`. -/
def meanBySum {R K N : Nat} (A : (⟨2, ![R, K]⟩ : Shape).Idx → EReal) (E : (⟨2, ![K, N]⟩ : Shape).Idx → EReal) :
    (⟨2, ![R, N]⟩ : Shape).Idx → EReal :=
  fun i => Ideal.div (∑ k : Fin K, A (ix2 (i 0) k) * E (ix2 k (i 1))) (∑ k : Fin K, A (ix2 (i 0) k))

/-- The hidden layer: unit j of row b, before and after the cut at zero. -/
def hidden {B : Nat} (g h : (⟨2, ![B, 64]⟩ : Shape).Idx → EReal) (wa wb : (⟨2, ![64, 8]⟩ : Shape).Idx → EReal)
    (b1 : (⟨1, ![8]⟩ : Shape).Idx → EReal) (b : Fin B) (j : Fin 8) : EReal :=
  max (((∑ k : Fin 64, g (ix2 b k) * wa (ix2 k j)) + (∑ k : Fin 64, h (ix2 b k) * wb (ix2 k j))) + b1 (ix1 j))
    (Ideal.ofBits .f32 0x00000000#32)

/-- The score of row b. -/
def score {B : Nat} (g h : (⟨2, ![B, 64]⟩ : Shape).Idx → EReal) (wa wb : (⟨2, ![64, 8]⟩ : Shape).Idx → EReal)
    (b1 : (⟨1, ![8]⟩ : Shape).Idx → EReal) (w2 : (⟨2, ![8, 1]⟩ : Shape).Idx → EReal) (b2 : (⟨1, ![1]⟩ : Shape).Idx → EReal) :
    (⟨2, ![B, 1]⟩ : Shape).Idx → EReal :=
  fun i => Ideal.logistic ((∑ j : Fin 8, hidden g h wa wb b1 (i 0) j * w2 (ix2 j (0 : Fin 1))) + b2 (ix1 (0 : Fin 1)))

/-- A one-bit word widened with zeros and read as a signed number is the bit read as an unsigned number. -/
theorem toInt_setWidth_bit (b : BitVec 1) : ((b.setWidth 32).toInt : ℝ) = ((b.toNat : ℕ) : ℝ) := by
  have h : ∀ b : BitVec 1, (b.setWidth 32).toInt = ((b.toNat : ℕ) : ℤ) := by decide
  rw [h b]; norm_cast

end Cert.GroupScore

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.Tile.lean ====
/-
  The two row-normalised tiles, read at an entry.

  Each grid point of the first two stages holds a tile of 200 rows of the left matrix and the whole right matrix.
  Its result at row p, column q is the inner product of row p with column q, divided by a total of row p:
  the count of positive entries raised to at least one (first stage), or the plain row sum (second stage).
  The narrowing of the operands to a shorter float format changes nothing on the extended reals.
-/
import proofs.«160768_j89120571392346_2_alg».proof.Proof.Gen.KernelIdeal.Skeleton
import proofs.«160768_j89120571392346_2_alg».proof.Proof.Spec
import proofs.«160768_j89120571392346_2_alg».proof.Proof.LibPlainMatmul
import proofs.«160768_j89120571392346_2_alg».proof.Proof.LibRowLayout
import Idealize.ShloMosaic.Lib.Pipeline.Value

noncomputable section

open scoped BigOperators

namespace Cert.GroupScore.Tile

open Idealize.ShloMosaic Idealize.ShloMosaic.ValueIdx Cert.KernelIdeal Cert.KernelIdeal.Gen

/-! ## The tile product's dimension record: one contracted axis of 10000, rows from the left, columns from the right -/

theorem lhs0 (i : S200x64.Idx) (q : dot_S200x10000_S10000x64_S200x64_1_0_0_1_n_n.contr.Idx) :
    (dot_S200x10000_S10000x64_S200x64_1_0_0_1_n_n.lhsIdx i q 0).val = (i 0).val := by
  unfold DotDims.lhsIdx
  rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
  rfl
theorem lhs1 (i : S200x64.Idx) (q : dot_S200x10000_S10000x64_S200x64_1_0_0_1_n_n.contr.Idx) :
    (dot_S200x10000_S10000x64_S200x64_1_0_0_1_n_n.lhsIdx i q 1).val = (q ⟨0, by decide⟩).val :=
  dot_S200x10000_S10000x64_S200x64_1_0_0_1_n_n.lhsIdx_val_of_single rfl i q
theorem rhs0 (i : S200x64.Idx) (q : dot_S200x10000_S10000x64_S200x64_1_0_0_1_n_n.contr.Idx) :
    (dot_S200x10000_S10000x64_S200x64_1_0_0_1_n_n.rhsIdx i q 0).val = (q ⟨0, by decide⟩).val :=
  dot_S200x10000_S10000x64_S200x64_1_0_0_1_n_n.rhsIdx_val_of_single rfl i q
theorem rhs1 (i : S200x64.Idx) (q : dot_S200x10000_S10000x64_S200x64_1_0_0_1_n_n.contr.Idx) :
    (dot_S200x10000_S10000x64_S200x64_1_0_0_1_n_n.rhsIdx i q 1).val = (i 1).val := by
  unfold DotDims.rhsIdx
  rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
  rfl

/-- The tile's product at (p, q): the inner product of row p of the left tile with column q of the right matrix. -/
theorem tileProduct_apply {φ₁ φ₂ : FTy} (l : FVec Ideal S200x10000 φ₁) (r : FVec Ideal S10000x64 φ₂) (p : Fin 200) (q : Fin 64) :
    matmul dot_S200x10000_S10000x64_S200x64_1_0_0_1_n_n none l r (constant (F := Ideal) S200x64 .f32 0x00000000#32) (ix2 p q)
      = ∑ k : Fin 10000, l (ix2 p k) * r (ix2 k q) :=
  Cert.PlainMatmul.matmul_zero_apply dot_S200x10000_S10000x64_S200x64_1_0_0_1_n_n rfl rfl lhs0 lhs1 rhs0 rhs1 none l r p q

/-! ## The first stage's tile -/

/-- The first stage's stored value at (p, q). -/
theorem countTile_apply (x0 : Vec Ideal S200x10000 .f32) (x1 : Vec Ideal S10000x64 .bf16) (p : Fin 200) (q : Fin 64) :
    k0_pay1 (F := Ideal) x0 x1 (ix2 p q)
      = Ideal.div (∑ k : Fin 10000, x0 (ix2 p k) * x1 (ix2 k q))
          (max (∑ k : Fin 10000, posBit (x0 (ix2 p k))) (Ideal.ofBits .f32 0x3F800000#32)) := by
  unfold k0_pay1
  dsimp only
  refine congrArg₂ Ideal.div ?_ ?_
  · refine (tileProduct_apply _ _ p q).trans (Finset.sum_congr rfl fun k _ => ?_)
    rw [shapeCast_self]; rfl
  · refine (Cert.RowLayout.bcastCol_apply _ broadcasts_S200x1_S200x64 p q).trans ?_
    refine congrArg₂ max ?_ rfl
    refine (Cert.RowLayout.castCol_apply _ shapeCasts_S200_S200x1 p).trans ?_
    refine (Cert.RowLayout.laneSum_apply _ reduces_S200x10000_S200 (.inl rfl) rfl p).trans ?_
    refine Finset.sum_congr rfl fun k _ => ?_
    show (((((Ideal.cmp .ogt (x0 (ix2 p k)) _).setWidth 32).toInt : ℝ)) : EReal) = _
    rw [toInt_setWidth_bit]; rfl

/-! ## The second stage's tile -/

/-- The second stage's stored value at (p, q). -/
theorem sumTile_apply (x0 : Vec Ideal S200x10000 .f32) (x1 : Vec Ideal S10000x64 .bf16) (p : Fin 200) (q : Fin 64) :
    k1_pay1 (F := Ideal) x0 x1 (ix2 p q)
      = Ideal.div (∑ k : Fin 10000, x0 (ix2 p k) * x1 (ix2 k q)) (∑ k : Fin 10000, x0 (ix2 p k)) := by
  unfold k1_pay1
  dsimp only
  refine congrArg₂ Ideal.div ?_ ?_
  · refine (tileProduct_apply _ _ p q).trans (Finset.sum_congr rfl fun k _ => ?_)
    rw [shapeCast_self]; rfl
  · refine (Cert.RowLayout.bcastCol_apply _ broadcasts_S200x1_S200x64 p q).trans ?_
    refine (Cert.RowLayout.castCol_apply _ shapeCasts_S200_S200x1 p).trans ?_
    exact Cert.RowLayout.laneSum_apply _ reduces_S200x10000_S200 (.inl rfl) rfl p

end Cert.GroupScore.Tile

end
-- ==== Proof.UserRows.lean ====
/-
  The first stage's result array: user rows.

  The stage walks the left matrix in tiles of 200 rows; point t holds rows 200 t … 200 t + 199 and the whole right
  matrix, and writes back rows 200 t … 200 t + 199 of the result. Row 200 t + p of the result is therefore the tile's
  row p (the tile lemma), and the 50 tiles cover every row: the array the stage leaves is each row's inner products divided by its count of positive entries (at least one)
  of the two arrays it found.
-/
import proofs.«160768_j89120571392346_2_alg».proof.Proof.Gen.KernelIdeal.Frame
import proofs.«160768_j89120571392346_2_alg».proof.Proof.Tile
import Idealize.ShloMosaic.Lib.Pipeline.Value
import Idealize.ShloMosaic.Lib.Tactic

set_option maxRecDepth 16384

noncomputable section

open scoped BigOperators

namespace Cert.GroupScore.UserRows

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left tile and the result tile are block t of their arrays, the right
    matrix is always its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left tile at point t is row 200 t + p of the left matrix. -/
theorem leftTile_apply (c : Dev nD) (t : Fin cfg0.N) (p : Fin 200) (k : Fin 10000) (r : Fin 10000)
    (hr : r.val = 200 * t.val + p.val) :
    (iblk0 V c 0 t : Vec Ideal S200x10000 .f32) (ix2 p k) = (V c main_arg1 : S10000x10000.Idx → EReal) (ix2 r k) := by
  obtain ⟨e0, e1, -⟩ := index_facts t
  unfold iblk0
  rw [View.read_apply]
  show V c main_arg1 _ = V c main_arg1 _
  refine congrArg _ ?_
  funext a
  apply Fin.ext
  match a with
  | ⟨0, _⟩ => show win0_0.index t (0 : Fin 2) * 200 + 1 * p.val = r.val; rw [e0, hr]; omega
  | ⟨1, _⟩ => show win0_0.index t (1 : Fin 2) * 10000 + 1 * k.val = k.val; rw [e1]; omega

/-- The right operand at every point is the whole right matrix. -/
theorem rightWhole_apply (c : Dev nD) (t : Fin cfg0.N) (k : Fin 10000) (q : Fin 64) :
    (iblk0 V c 1 t : Vec Ideal S10000x64 .bf16) (ix2 k q) = (V c main_v0 : S10000x64.Idx → EReal) (ix2 k q) := by
  obtain ⟨-, -, e2, e3, -⟩ := index_facts t
  unfold iblk0
  rw [View.read_apply]
  show V c main_v0 _ = V c main_v0 _
  refine congrArg _ ?_
  funext a
  apply Fin.ext
  match a with
  | ⟨0, _⟩ => show win0_1.index t (0 : Fin 2) * 10000 + 1 * k.val = k.val; rw [e2]; omega
  | ⟨1, _⟩ => show win0_1.index t (1 : Fin 2) * 64 + 1 * q.val = q.val; rw [e3]; omega

/-- The tile's stored value at a local index is the whole-array function at the index the result's block places
    it at. -/
theorem tile_eq (c : Dev nD) (t : Fin cfg0.N) (j : S200x64.Idx) :
    k0_pay1 (F := Ideal) (iblk0 V c 0 t) (iblk0 V c 1 t) j
      = meanByCount (V c main_arg1 : S10000x10000.Idx → EReal) (V c main_v0 : S10000x64.Idx → EReal)
          (((cfg0.win 2).blk t).view.emb j) := by
  obtain ⟨p, q, rfl⟩ : ∃ (p : Fin 200) (q : Fin 64), j = ix2 p q := ⟨j 0, j 1, eq_ix2 j⟩
  obtain ⟨-, -, -, -, e4, e5⟩ := index_facts t
  have hN : cfg0.N = 50 := N_0
  have hlt : 200 * t.val + p.val < 10000 := by have := t.isLt; have := p.isLt; omega
  have hemb : ((cfg0.win 2).blk t).view.emb (ix2 p q) = ix2 (⟨200 * t.val + p.val, hlt⟩ : Fin 10000) q := by
    funext a
    apply Fin.ext
    match a with
    | ⟨0, _⟩ => show win0_2.index t (0 : Fin 2) * 200 + 1 * p.val = 200 * t.val + p.val; rw [e4]; omega
    | ⟨1, _⟩ => show win0_2.index t (1 : Fin 2) * 64 + 1 * q.val = q.val; rw [e5]; omega
  rw [hemb]
  refine (Tile.countTile_apply _ _ p q).trans ?_
  unfold meanByCount
  exact congrArg₂ Ideal.div
    (Finset.sum_congr rfl fun k _ => congrArg₂ (· * ·) (leftTile_apply V c t p k _ rfl) (rightWhole_apply V c t k q))
    (congrArg₂ max (Finset.sum_congr rfl fun k _ => congrArg posBit (leftTile_apply V c t p k _ rfl)) rfl)

/-- A tile that agrees, index by index, with a whole-array function at the places the result's block puts its
    entries is what the write-back of that block reads of the function. -/
theorem cut_eq_read_of_tile (c : Dev nD) (t : Fin cfg0.N) (X : S200x64.Idx → EReal) (G : S10000x64.Idx → EReal)
    (h : ∀ j : S200x64.Idx, X j = G (((cfg0.win 2).blk t).view.emb j)) :
    (cfg0.win 2).cut (grid0.coords t) X = ((cfg0.win 2).blk t).view.read (Elt Ideal) G := by
  funext j
  rw [View.read_apply]
  exact h _

/-- What point t writes back is block t of the whole-array function. -/
theorem flushed_eq (c : Dev nD) (t : Fin cfg0.N) :
    (dat0 V c).flushed 2 t = ((cfg0.win 2).blk t).view.read (Elt Ideal)
      (meanByCount (V c main_arg1 : S10000x10000.Idx → EReal) (V c main_v0 : S10000x64.Idx → EReal)) := by
  show (cfg0.win 2).cut (grid0.coords t) ((dat0 V c).after 2 t) = _
  rw [after0_2]
  unfold out0_2
  rw [View.canon_unit_zero hz]
  simp only [View.ld_unit_zero (S := S200x10000) hz, View.ld_unit_zero (S := S10000x64) hz]
  exact cut_eq_read_of_tile c t _ _ (tile_eq V c t)

/-- An index of the result array is in point t's block iff each coordinate is in the block's range on its axis. -/
theorem mem_blk (t : Fin cfg0.N) (i : S10000x64.Idx) :
    i ∈ ((cfg0.win 2).blk t).view.set ↔ ∀ a : Fin 2, win0_2.index t a * S200x64.size a ≤ (i a).val ∧ (i a).val < win0_2.index t a * S200x64.size a + S200x64.size a := by
  show i ∈ ((View.whole main_v1).slice (win0_2.rect t)).set ↔ _
  rw [View.set_slice_whole, Rect.mem_set_unit]
  exact Iff.rfl

/-- Every row of the result is in some point's block: row r in block r / 200. -/
theorem cover (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  have hN : cfg0.N = 50 := N_0
  obtain ⟨t, ht⟩ : ∃ t : Fin cfg0.N, t.val = (i 0).val / 200 := ⟨⟨(i 0).val / 200, by rw [hN]; omega⟩, rfl⟩
  obtain ⟨-, -, -, -, e4, e5⟩ := index_facts t
  refine ⟨t, flush0_2 t, ?_⟩
  rw [mem_blk]
  intro a
  match a with
  | ⟨0, _⟩ => show win0_2.index t (0 : Fin 2) * 200 ≤ (i 0).val ∧ (i 0).val < win0_2.index t (0 : Fin 2) * 200 + 200; rw [e4, ht]; omega
  | ⟨1, _⟩ => show win0_2.index t (1 : Fin 2) * 64 ≤ (i 1).val ∧ (i 1).val < win0_2.index t (1 : Fin 2) * 64 + 64; rw [e5]; omega

/-- The array the stage leaves: the whole-array function of the two arrays it found. -/
theorem final (c : Dev nD) :
    (dat0 V c).arrAt 2 cfg0.N
      = meanByCount (V c main_arg1 : S10000x10000.Idx → EReal) (V c main_v0 : S10000x64.Idx → EReal) :=
  (dat0 V c).arrAt_eq_of_cover 2 _ (fun t _ => flushed_eq V c t) cover

end Cert.GroupScore.UserRows

end
-- ==== Proof.GroupRows.lean ====
/-
  The second stage's result array: group rows.

  The stage walks the left matrix in tiles of 200 rows; point t holds rows 200 t … 200 t + 199 and the whole right
  matrix, and writes back rows 200 t … 200 t + 199 of the result. Row 200 t + p of the result is therefore the tile's
  row p (the tile lemma), and the 25 tiles cover every row: the array the stage leaves is each row's inner products divided by the row's sum
  of the two arrays it found.
-/
import proofs.«160768_j89120571392346_2_alg».proof.Proof.Gen.KernelIdeal.Frame
import proofs.«160768_j89120571392346_2_alg».proof.Proof.Tile
import Idealize.ShloMosaic.Lib.Pipeline.Value
import Idealize.ShloMosaic.Lib.Tactic

set_option maxRecDepth 16384

noncomputable section

open scoped BigOperators

namespace Cert.GroupScore.GroupRows

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left tile and the result tile are block t of their arrays, the right
    matrix is always its one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left tile at point t is row 200 t + p of the left matrix. -/
theorem leftTile_apply (c : Dev nD) (t : Fin cfg1.N) (p : Fin 200) (k : Fin 10000) (r : Fin 5000)
    (hr : r.val = 200 * t.val + p.val) :
    (iblk1 V c 0 t : Vec Ideal S200x10000 .f32) (ix2 p k) = (V c main_arg2 : S5000x10000.Idx → EReal) (ix2 r k) := by
  obtain ⟨e0, e1, -⟩ := index_facts t
  unfold iblk1
  rw [View.read_apply]
  show V c main_arg2 _ = V c main_arg2 _
  refine congrArg _ ?_
  funext a
  apply Fin.ext
  match a with
  | ⟨0, _⟩ => show win1_0.index t (0 : Fin 2) * 200 + 1 * p.val = r.val; rw [e0, hr]; omega
  | ⟨1, _⟩ => show win1_0.index t (1 : Fin 2) * 10000 + 1 * k.val = k.val; rw [e1]; omega

/-- The right operand at every point is the whole right matrix. -/
theorem rightWhole_apply (c : Dev nD) (t : Fin cfg1.N) (k : Fin 10000) (q : Fin 64) :
    (iblk1 V c 1 t : Vec Ideal S10000x64 .bf16) (ix2 k q) = (V c main_v1 : S10000x64.Idx → EReal) (ix2 k q) := by
  obtain ⟨-, -, e2, e3, -⟩ := index_facts t
  unfold iblk1
  rw [View.read_apply]
  show V c main_v1 _ = V c main_v1 _
  refine congrArg _ ?_
  funext a
  apply Fin.ext
  match a with
  | ⟨0, _⟩ => show win1_1.index t (0 : Fin 2) * 10000 + 1 * k.val = k.val; rw [e2]; omega
  | ⟨1, _⟩ => show win1_1.index t (1 : Fin 2) * 64 + 1 * q.val = q.val; rw [e3]; omega

/-- The tile's stored value at a local index is the whole-array function at the index the result's block places
    it at. -/
theorem tile_eq (c : Dev nD) (t : Fin cfg1.N) (j : S200x64.Idx) :
    k1_pay1 (F := Ideal) (iblk1 V c 0 t) (iblk1 V c 1 t) j
      = meanBySum (V c main_arg2 : S5000x10000.Idx → EReal) (V c main_v1 : S10000x64.Idx → EReal)
          (((cfg1.win 2).blk t).view.emb j) := by
  obtain ⟨p, q, rfl⟩ : ∃ (p : Fin 200) (q : Fin 64), j = ix2 p q := ⟨j 0, j 1, eq_ix2 j⟩
  obtain ⟨-, -, -, -, e4, e5⟩ := index_facts t
  have hN : cfg1.N = 25 := N_1
  have hlt : 200 * t.val + p.val < 5000 := by have := t.isLt; have := p.isLt; omega
  have hemb : ((cfg1.win 2).blk t).view.emb (ix2 p q) = ix2 (⟨200 * t.val + p.val, hlt⟩ : Fin 5000) q := by
    funext a
    apply Fin.ext
    match a with
    | ⟨0, _⟩ => show win1_2.index t (0 : Fin 2) * 200 + 1 * p.val = 200 * t.val + p.val; rw [e4]; omega
    | ⟨1, _⟩ => show win1_2.index t (1 : Fin 2) * 64 + 1 * q.val = q.val; rw [e5]; omega
  rw [hemb]
  refine (Tile.sumTile_apply _ _ p q).trans ?_
  unfold meanBySum
  exact congrArg₂ Ideal.div
    (Finset.sum_congr rfl fun k _ => congrArg₂ (· * ·) (leftTile_apply V c t p k _ rfl) (rightWhole_apply V c t k q))
    (Finset.sum_congr rfl fun k _ => leftTile_apply V c t p k _ rfl)

/-- A tile that agrees, index by index, with a whole-array function at the places the result's block puts its
    entries is what the write-back of that block reads of the function. -/
theorem cut_eq_read_of_tile (c : Dev nD) (t : Fin cfg1.N) (X : S200x64.Idx → EReal) (G : S5000x64.Idx → EReal)
    (h : ∀ j : S200x64.Idx, X j = G (((cfg1.win 2).blk t).view.emb j)) :
    (cfg1.win 2).cut (grid1.coords t) X = ((cfg1.win 2).blk t).view.read (Elt Ideal) G := by
  funext j
  rw [View.read_apply]
  exact h _

/-- What point t writes back is block t of the whole-array function. -/
theorem flushed_eq (c : Dev nD) (t : Fin cfg1.N) :
    (dat1 V c).flushed 2 t = ((cfg1.win 2).blk t).view.read (Elt Ideal)
      (meanBySum (V c main_arg2 : S5000x10000.Idx → EReal) (V c main_v1 : S10000x64.Idx → EReal)) := by
  show (cfg1.win 2).cut (grid1.coords t) ((dat1 V c).after 2 t) = _
  rw [after1_2]
  unfold out1_2
  rw [View.canon_unit_zero hz]
  simp only [View.ld_unit_zero (S := S200x10000) hz, View.ld_unit_zero (S := S10000x64) hz]
  exact cut_eq_read_of_tile c t _ _ (tile_eq V c t)

/-- An index of the result array is in point t's block iff each coordinate is in the block's range on its axis. -/
theorem mem_blk (t : Fin cfg1.N) (i : S5000x64.Idx) :
    i ∈ ((cfg1.win 2).blk t).view.set ↔ ∀ a : Fin 2, win1_2.index t a * S200x64.size a ≤ (i a).val ∧ (i a).val < win1_2.index t a * S200x64.size a + S200x64.size a := by
  show i ∈ ((View.whole main_v2).slice (win1_2.rect t)).set ↔ _
  rw [View.set_slice_whole, Rect.mem_set_unit]
  exact Iff.rfl

/-- Every row of the result is in some point's block: row r in block r / 200. -/
theorem cover (i : S5000x64.Idx) : ∃ t : Fin cfg1.N, (cfg1.win 2).flush t = true ∧ i ∈ ((cfg1.win 2).blk t).view.set := by
  have hi0 : (i 0).val < 5000 := (i 0).isLt
  have hi1 : (i 1).val < 64 := (i 1).isLt
  have hN : cfg1.N = 25 := N_1
  obtain ⟨t, ht⟩ : ∃ t : Fin cfg1.N, t.val = (i 0).val / 200 := ⟨⟨(i 0).val / 200, by rw [hN]; omega⟩, rfl⟩
  obtain ⟨-, -, -, -, e4, e5⟩ := index_facts t
  refine ⟨t, flush1_2 t, ?_⟩
  rw [mem_blk]
  intro a
  match a with
  | ⟨0, _⟩ => show win1_2.index t (0 : Fin 2) * 200 ≤ (i 0).val ∧ (i 0).val < win1_2.index t (0 : Fin 2) * 200 + 200; rw [e4, ht]; omega
  | ⟨1, _⟩ => show win1_2.index t (1 : Fin 2) * 64 ≤ (i 1).val ∧ (i 1).val < win1_2.index t (1 : Fin 2) * 64 + 64; rw [e5]; omega

/-- The array the stage leaves: the whole-array function of the two arrays it found. -/
theorem final (c : Dev nD) :
    (dat1 V c).arrAt 2 cfg1.N
      = meanBySum (V c main_arg2 : S5000x10000.Idx → EReal) (V c main_v1 : S10000x64.Idx → EReal) :=
  (dat1 V c).arrAt_eq_of_cover 2 _ (fun t _ => flushed_eq V c t) cover

end Cert.GroupScore.GroupRows

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.Head.lean ====
/-
  The scoring head's tile, read at a row.

  Each grid point of the third stage holds 4096 rows of the two gathered feature arrays and the whole of the small
  weights. Its result for row p is the logistic function of: the eight hidden units (the two feature rows against
  the two halves of the first weight matrix, plus the first bias, cut at zero) against the weight column, plus the
  second bias. The narrowing of the operands to a shorter float format changes nothing on the extended reals.
-/
import proofs.«160768_j89120571392346_2_alg».proof.Proof.Gen.KernelIdeal.Skeleton
import proofs.«160768_j89120571392346_2_alg».proof.Proof.Spec
import proofs.«160768_j89120571392346_2_alg».proof.Proof.LibPlainMatmul
import proofs.«160768_j89120571392346_2_alg».proof.Proof.LibRowLayout
import proofs.«160768_j89120571392346_2_alg».proof.Proof.LibRowBias
import Idealize.ShloMosaic.Lib.Pipeline.Value

noncomputable section

open scoped BigOperators

namespace Cert.GroupScore.Head

open Idealize.ShloMosaic Idealize.ShloMosaic.ValueIdx Cert.KernelIdeal Cert.KernelIdeal.Gen

/-! ## The first product's record: 4096 rows, 64 contracted, 8 columns -/

theorem lhsA0 (i : S4096x8.Idx) (q : dot_S4096x64_S64x8_S4096x8_1_0_0_1_n_n.contr.Idx) :
    (dot_S4096x64_S64x8_S4096x8_1_0_0_1_n_n.lhsIdx i q 0).val = (i 0).val := by
  unfold DotDims.lhsIdx
  rw [dif_neg (show ¬(0 : Fin S4096x64.rank) ∈ dot_S4096x64_S64x8_S4096x8_1_0_0_1_n_n.lhsBatch by decide), dif_pos (show (0 : Fin S4096x64.rank) ∈ dot_S4096x64_S64x8_S4096x8_1_0_0_1_n_n.lhsNonContracting by decide)]
  rfl
theorem lhsA1 (i : S4096x8.Idx) (q : dot_S4096x64_S64x8_S4096x8_1_0_0_1_n_n.contr.Idx) :
    (dot_S4096x64_S64x8_S4096x8_1_0_0_1_n_n.lhsIdx i q 1).val = (q ⟨0, by decide⟩).val :=
  dot_S4096x64_S64x8_S4096x8_1_0_0_1_n_n.lhsIdx_val_of_single rfl i q
theorem rhsA0 (i : S4096x8.Idx) (q : dot_S4096x64_S64x8_S4096x8_1_0_0_1_n_n.contr.Idx) :
    (dot_S4096x64_S64x8_S4096x8_1_0_0_1_n_n.rhsIdx i q 0).val = (q ⟨0, by decide⟩).val :=
  dot_S4096x64_S64x8_S4096x8_1_0_0_1_n_n.rhsIdx_val_of_single rfl i q
theorem rhsA1 (i : S4096x8.Idx) (q : dot_S4096x64_S64x8_S4096x8_1_0_0_1_n_n.contr.Idx) :
    (dot_S4096x64_S64x8_S4096x8_1_0_0_1_n_n.rhsIdx i q 1).val = (i 1).val := by
  unfold DotDims.rhsIdx
  rw [dif_neg (show ¬(1 : Fin S64x8.rank) ∈ dot_S4096x64_S64x8_S4096x8_1_0_0_1_n_n.rhsBatch by decide), dif_pos (show (1 : Fin S64x8.rank) ∈ dot_S4096x64_S64x8_S4096x8_1_0_0_1_n_n.rhsNonContracting by decide)]
  rfl

/-- Features against one half of the first weight matrix, at (p, j). -/
theorem featProduct_apply {φ₁ φ₂ : FTy} (l : FVec Ideal S4096x64 φ₁) (r : FVec Ideal S64x8 φ₂) (p : Fin 4096) (j : Fin 8) :
    matmul dot_S4096x64_S64x8_S4096x8_1_0_0_1_n_n none l r (constant (F := Ideal) S4096x8 .f32 0x00000000#32) (ix2 p j)
      = ∑ k : Fin 64, l (ix2 p k) * r (ix2 k j) :=
  Cert.PlainMatmul.matmul_zero_apply dot_S4096x64_S64x8_S4096x8_1_0_0_1_n_n rfl rfl lhsA0 lhsA1 rhsA0 rhsA1 none l r p j

/-! ## The second product's record: 4096 rows, 8 contracted, 1 column -/

theorem lhsB0 (i : S4096x1.Idx) (q : dot_S4096x8_S8x1_S4096x1_1_0_0_1_n_n.contr.Idx) :
    (dot_S4096x8_S8x1_S4096x1_1_0_0_1_n_n.lhsIdx i q 0).val = (i 0).val := by
  unfold DotDims.lhsIdx
  rw [dif_neg (show ¬(0 : Fin S4096x8.rank) ∈ dot_S4096x8_S8x1_S4096x1_1_0_0_1_n_n.lhsBatch by decide), dif_pos (show (0 : Fin S4096x8.rank) ∈ dot_S4096x8_S8x1_S4096x1_1_0_0_1_n_n.lhsNonContracting by decide)]
  rfl
theorem lhsB1 (i : S4096x1.Idx) (q : dot_S4096x8_S8x1_S4096x1_1_0_0_1_n_n.contr.Idx) :
    (dot_S4096x8_S8x1_S4096x1_1_0_0_1_n_n.lhsIdx i q 1).val = (q ⟨0, by decide⟩).val :=
  dot_S4096x8_S8x1_S4096x1_1_0_0_1_n_n.lhsIdx_val_of_single rfl i q
theorem rhsB0 (i : S4096x1.Idx) (q : dot_S4096x8_S8x1_S4096x1_1_0_0_1_n_n.contr.Idx) :
    (dot_S4096x8_S8x1_S4096x1_1_0_0_1_n_n.rhsIdx i q 0).val = (q ⟨0, by decide⟩).val :=
  dot_S4096x8_S8x1_S4096x1_1_0_0_1_n_n.rhsIdx_val_of_single rfl i q
theorem rhsB1 (i : S4096x1.Idx) (q : dot_S4096x8_S8x1_S4096x1_1_0_0_1_n_n.contr.Idx) :
    (dot_S4096x8_S8x1_S4096x1_1_0_0_1_n_n.rhsIdx i q 1).val = (i 1).val := by
  unfold DotDims.rhsIdx
  rw [dif_neg (show ¬(1 : Fin S8x1.rank) ∈ dot_S4096x8_S8x1_S4096x1_1_0_0_1_n_n.rhsBatch by decide), dif_pos (show (1 : Fin S8x1.rank) ∈ dot_S4096x8_S8x1_S4096x1_1_0_0_1_n_n.rhsNonContracting by decide)]
  rfl

/-- Hidden units against the weight column, at row p. -/
theorem unitProduct_apply {φ₁ φ₂ : FTy} (l : FVec Ideal S4096x8 φ₁) (r : FVec Ideal S8x1 φ₂) (p : Fin 4096) :
    matmul dot_S4096x8_S8x1_S4096x1_1_0_0_1_n_n none l r (constant (F := Ideal) S4096x1 .f32 0x00000000#32) (ix2 p (0 : Fin 1))
      = ∑ j : Fin 8, l (ix2 p j) * r (ix2 j (0 : Fin 1)) :=
  Cert.PlainMatmul.matmul_zero_apply dot_S4096x8_S8x1_S4096x1_1_0_0_1_n_n rfl rfl lhsB0 lhsB1 rhsB0 rhsB1 none l r p (0 : Fin 1)

/-! ## The tile -/

/-- The third stage's stored value at row p is the score of row p of the tile's operands. -/
theorem scoreTile_apply (x0 x1 : Vec Ideal S4096x64 .f32) (wa wb : Vec Ideal S64x8 .f32) (b1 : Vec Ideal S8 .f32)
    (w2 : Vec Ideal S8x1 .f32) (b2 : Vec Ideal S1 .f32) (p : Fin 4096) :
    k2_pay1 (F := Ideal) x0 x1 wa wb b1 w2 b2 (ix2 p (0 : Fin 1)) = score x0 x1 wa wb b1 w2 b2 (ix2 p (0 : Fin 1)) := by
  unfold k2_pay1
  show Ideal.logistic _ = Ideal.logistic ((∑ j : Fin 8, hidden x0 x1 wa wb b1 p j * w2 (ix2 j (0 : Fin 1))) + b2 (ix1 (0 : Fin 1)))
  refine congrArg Ideal.logistic ?_
  refine congrArg₂ (· + ·) ?_ ?_
  · refine (unitProduct_apply _ _ p).trans (Finset.sum_congr rfl fun j _ => ?_)
    refine congrArg₂ (· * ·) ?_ rfl
    unfold hidden
    refine congrArg₂ max ?_ rfl
    refine congrArg₂ (· + ·) (congrArg₂ (· + ·) ?_ ?_) ?_
    · refine (featProduct_apply _ _ p j).trans (Finset.sum_congr rfl fun k _ => ?_)
      rw [shapeCast_self, shapeCast_self]; rfl
    · refine (featProduct_apply _ _ p j).trans (Finset.sum_congr rfl fun k _ => ?_)
      rw [shapeCast_self, shapeCast_self]; rfl
    · exact (Cert.RowBias.bcastRow_apply _ broadcasts_S1x8_S4096x8 p j).trans (Cert.RowBias.castRow_apply _ shapeCasts_S8_S1x8 j)
  · exact (Cert.RowBias.bcastRow_apply _ broadcasts_S1x1_S4096x1 p (0 : Fin 1)).trans (Cert.RowBias.castRow_apply _ shapeCasts_S1_S1x1 (0 : Fin 1))

end Cert.GroupScore.Head

end
-- ==== Proof.ScoreRows.lean ====
/-
  The third stage's result array: one score per row.

  The stage walks the two gathered feature arrays in tiles of 4096 rows; point t holds rows 4096 t … 4096 t + 4095 of
  both and the whole of the small weights, and writes back rows 4096 t … 4096 t + 4095 of the one-column result. Row
  4096 t + p of the result is the tile's row p (the head lemma), a score depends only on its own row of the two feature
  arrays, and the 4 tiles cover every row: the array the stage leaves is the score of the arrays it found.
-/
import proofs.«160768_j89120571392346_2_alg».proof.Proof.Gen.KernelIdeal.Frame
import proofs.«160768_j89120571392346_2_alg».proof.Proof.Head
import Idealize.ShloMosaic.Lib.Pipeline.Value
import Idealize.ShloMosaic.Lib.Tactic

set_option maxRecDepth 16384

noncomputable section

open scoped BigOperators

namespace Cert.GroupScore.ScoreRows

open Idealize.ShloMosaic Idealize.ShloMosaic.TcCoe Idealize.SL.Sem Idealize.ShloMosaic.ValueIdx
open Idealize.ShloMosaic.Pipeline (Dat)
open Cert.KernelIdeal Cert.KernelIdeal.Gen

/-- A row's score reads only that row of the two feature arrays. -/
theorem score_congr_rows {B B' : Nat} (g h : (⟨2, ![B, 64]⟩ : Shape).Idx → EReal) (g' h' : (⟨2, ![B', 64]⟩ : Shape).Idx → EReal)
    (wa wb : (⟨2, ![64, 8]⟩ : Shape).Idx → EReal) (b1 : (⟨1, ![8]⟩ : Shape).Idx → EReal)
    (w2 : (⟨2, ![8, 1]⟩ : Shape).Idx → EReal) (b2 : (⟨1, ![1]⟩ : Shape).Idx → EReal) (p : Fin B) (r : Fin B')
    (hg : ∀ k, g (ix2 p k) = g' (ix2 r k)) (hh : ∀ k, h (ix2 p k) = h' (ix2 r k)) :
    score g h wa wb b1 w2 b2 (ix2 p (0 : Fin 1)) = score g' h' wa wb b1 w2 b2 (ix2 r (0 : Fin 1)) := by
  have hu : ∀ j, hidden g h wa wb b1 p j = hidden g' h' wa wb b1 r j := fun j => by
    unfold hidden; simp only [hg, hh]
  show Ideal.logistic ((∑ j : Fin 8, hidden g h wa wb b1 p j * w2 (ix2 j (0 : Fin 1))) + b2 (ix1 (0 : Fin 1)))
    = Ideal.logistic ((∑ j : Fin 8, hidden g' h' wa wb b1 r j * w2 (ix2 j (0 : Fin 1))) + b2 (ix1 (0 : Fin 1)))
  simp only [hu]

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two feature tiles and the result tile are block t of their arrays, every
    weight is always its one block. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- Row p of the first feature tile at point t is row 4096 t + p of the first feature array. -/
theorem featA_apply (c : Dev nD) (t : Fin cfg2.N) (p : Fin 4096) (k : Fin 64) (r : Fin 16384)
    (hr : r.val = 4096 * t.val + p.val) :
    (iblk2 V c 0 t : Vec Ideal S4096x64 .f32) (ix2 p k) = (V c main_v9 : S16384x64.Idx → EReal) (ix2 r k) := by
  obtain ⟨e0, e1, -⟩ := index_facts t
  unfold iblk2
  rw [View.read_apply]
  show V c main_v9 _ = V c main_v9 _
  refine congrArg _ ?_
  funext a
  apply Fin.ext
  match a with
  | ⟨0, _⟩ => show win2_0.index t (0 : Fin 2) * 4096 + 1 * p.val = r.val; rw [e0, hr]; omega
  | ⟨1, _⟩ => show win2_0.index t (1 : Fin 2) * 64 + 1 * k.val = k.val; rw [e1]; omega

/-- Row p of the second feature tile at point t is row 4096 t + p of the second feature array. -/
theorem featB_apply (c : Dev nD) (t : Fin cfg2.N) (p : Fin 4096) (k : Fin 64) (r : Fin 16384)
    (hr : r.val = 4096 * t.val + p.val) :
    (iblk2 V c 1 t : Vec Ideal S4096x64 .f32) (ix2 p k) = (V c main_v16 : S16384x64.Idx → EReal) (ix2 r k) := by
  obtain ⟨-, -, e0, e1, -⟩ := index_facts t
  unfold iblk2
  rw [View.read_apply]
  show V c main_v16 _ = V c main_v16 _
  refine congrArg _ ?_
  funext a
  apply Fin.ext
  match a with
  | ⟨0, _⟩ => show win2_1.index t (0 : Fin 2) * 4096 + 1 * p.val = r.val; rw [e0, hr]; omega
  | ⟨1, _⟩ => show win2_1.index t (1 : Fin 2) * 64 + 1 * k.val = k.val; rw [e1]; omega

/-- Each weight operand at every point is the whole weight array. -/
theorem wA_whole (c : Dev nD) (t : Fin cfg2.N) : (iblk2 V c 2 t : Vec Ideal S64x8 .f32) = (V c main_v17 : S64x8.Idx → EReal) := by
  obtain ⟨-, -, -, -, e0, e1, -⟩ := index_facts t
  funext j
  unfold iblk2
  rw [View.read_apply]
  show V c main_v17 _ = V c main_v17 _
  refine congrArg _ ?_
  funext a
  apply Fin.ext
  match a with
  | ⟨0, _⟩ => show win2_2.index t (0 : Fin 2) * 64 + 1 * (j 0).val = (j 0).val; rw [e0]; omega
  | ⟨1, _⟩ => show win2_2.index t (1 : Fin 2) * 8 + 1 * (j 1).val = (j 1).val; rw [e1]; omega

theorem wB_whole (c : Dev nD) (t : Fin cfg2.N) : (iblk2 V c 3 t : Vec Ideal S64x8 .f32) = (V c main_v18 : S64x8.Idx → EReal) := by
  obtain ⟨-, -, -, -, -, -, e0, e1, -⟩ := index_facts t
  funext j
  unfold iblk2
  rw [View.read_apply]
  show V c main_v18 _ = V c main_v18 _
  refine congrArg _ ?_
  funext a
  apply Fin.ext
  match a with
  | ⟨0, _⟩ => show win2_3.index t (0 : Fin 2) * 64 + 1 * (j 0).val = (j 0).val; rw [e0]; omega
  | ⟨1, _⟩ => show win2_3.index t (1 : Fin 2) * 8 + 1 * (j 1).val = (j 1).val; rw [e1]; omega

theorem b1_whole (c : Dev nD) (t : Fin cfg2.N) : (iblk2 V c 4 t : Vec Ideal S8 .f32) = (V c main_arg4 : S8.Idx → EReal) := by
  obtain ⟨-, -, -, -, -, -, -, -, e0, -⟩ := index_facts t
  funext j
  unfold iblk2
  rw [View.read_apply]
  show V c main_arg4 _ = V c main_arg4 _
  refine congrArg _ ?_
  funext a
  apply Fin.ext
  match a with
  | ⟨0, _⟩ => show win2_4.index t (0 : Fin 1) * 8 + 1 * (j 0).val = (j 0).val; rw [e0]; omega

theorem w2_whole (c : Dev nD) (t : Fin cfg2.N) : (iblk2 V c 5 t : Vec Ideal S8x1 .f32) = (V c main_arg5 : S8x1.Idx → EReal) := by
  obtain ⟨-, -, -, -, -, -, -, -, -, e0, e1, -⟩ := index_facts t
  funext j
  unfold iblk2
  rw [View.read_apply]
  show V c main_arg5 _ = V c main_arg5 _
  refine congrArg _ ?_
  funext a
  apply Fin.ext
  match a with
  | ⟨0, _⟩ => show win2_5.index t (0 : Fin 2) * 8 + 1 * (j 0).val = (j 0).val; rw [e0]; omega
  | ⟨1, _⟩ => show win2_5.index t (1 : Fin 2) * 1 + 1 * (j 1).val = (j 1).val; rw [e1]; omega

theorem b2_whole (c : Dev nD) (t : Fin cfg2.N) : (iblk2 V c 6 t : Vec Ideal S1 .f32) = (V c main_arg6 : S1.Idx → EReal) := by
  obtain ⟨-, -, -, -, -, -, -, -, -, -, -, e0, -⟩ := index_facts t
  funext j
  unfold iblk2
  rw [View.read_apply]
  show V c main_arg6 _ = V c main_arg6 _
  refine congrArg _ ?_
  funext a
  apply Fin.ext
  match a with
  | ⟨0, _⟩ => show win2_6.index t (0 : Fin 1) * 1 + 1 * (j 0).val = (j 0).val; rw [e0]; omega

/-- The whole-array result: the score of the arrays the stage found. -/
abbrev result (c : Dev nD) : S16384x1.Idx → EReal :=
  score (V c main_v9 : S16384x64.Idx → EReal) (V c main_v16 : S16384x64.Idx → EReal) (V c main_v17 : S64x8.Idx → EReal)
    (V c main_v18 : S64x8.Idx → EReal) (V c main_arg4 : S8.Idx → EReal) (V c main_arg5 : S8x1.Idx → EReal) (V c main_arg6 : S1.Idx → EReal)

/-- The tile's stored value at a local row is the whole-array score at the row the result's block places it at. -/
theorem tile_eq (c : Dev nD) (t : Fin cfg2.N) (j : S4096x1.Idx) :
    k2_pay1 (F := Ideal) (iblk2 V c 0 t) (iblk2 V c 1 t) (iblk2 V c 2 t) (iblk2 V c 3 t) (iblk2 V c 4 t) (iblk2 V c 5 t) (iblk2 V c 6 t) j
      = result V c (((cfg2.win 7).blk t).view.emb j) := by
  obtain ⟨p, q, rfl⟩ : ∃ (p : Fin 4096) (q : Fin 1), j = ix2 p q := ⟨j 0, j 1, eq_ix2 j⟩
  obtain rfl : q = 0 := Subsingleton.elim _ _
  obtain ⟨-, -, -, -, -, -, -, -, -, -, -, -, e4, e5⟩ := index_facts t
  have hN : cfg2.N = 4 := N_2
  have hlt : 4096 * t.val + p.val < 16384 := by have := t.isLt; have := p.isLt; omega
  have hemb : ((cfg2.win 7).blk t).view.emb (ix2 p (0 : Fin 1)) = ix2 (⟨4096 * t.val + p.val, hlt⟩ : Fin 16384) (0 : Fin 1) := by
    funext a
    apply Fin.ext
    match a with
    | ⟨0, _⟩ => show win2_7.index t (0 : Fin 2) * 4096 + 1 * p.val = 4096 * t.val + p.val; rw [e4]; omega
    | ⟨1, _⟩ => show win2_7.index t (1 : Fin 2) * 1 + 1 * 0 = 0; rw [e5]
  rw [hemb]
  refine (Head.scoreTile_apply _ _ _ _ _ _ _ p).trans ?_
  rw [wA_whole V c t, wB_whole V c t, b1_whole V c t, w2_whole V c t, b2_whole V c t]
  exact score_congr_rows _ _ _ _ _ _ _ _ _ p _ (fun k => featA_apply V c t p k _ rfl) (fun k => featB_apply V c t p k _ rfl)

/-- A tile that agrees, row by row, with a whole-array function at the places the result's block puts its entries is
    what the write-back of that block reads of the function. -/
theorem cut_eq_read_of_tile (c : Dev nD) (t : Fin cfg2.N) (X : S4096x1.Idx → EReal) (G : S16384x1.Idx → EReal)
    (h : ∀ j : S4096x1.Idx, X j = G (((cfg2.win 7).blk t).view.emb j)) :
    (cfg2.win 7).cut (grid2.coords t) X = ((cfg2.win 7).blk t).view.read (Elt Ideal) G := by
  funext j
  rw [View.read_apply]
  exact h _

/-- What point t writes back is block t of the whole-array score. -/
theorem flushed_eq (c : Dev nD) (t : Fin cfg2.N) :
    (dat2 V c).flushed 7 t = ((cfg2.win 7).blk t).view.read (Elt Ideal) (result V c) := by
  show (cfg2.win 7).cut (grid2.coords t) ((dat2 V c).after 7 t) = _
  rw [after2_7]
  unfold out2_7
  rw [View.canon_unit_zero hz2]
  simp only [View.ld_unit_zero (S := S4096x64) hz2, View.ld_unit_zero (S := S64x8) hz2, View.ld_unit_zero (S := S8) hz1,
    View.ld_unit_zero (S := S8x1) hz2, View.ld_unit_zero (S := S1) hz1]
  exact cut_eq_read_of_tile c t _ _ (tile_eq V c t)

/-- An index of the result array is in point t's block iff each coordinate is in the block's range on its axis. -/
theorem mem_blk (t : Fin cfg2.N) (i : S16384x1.Idx) :
    i ∈ ((cfg2.win 7).blk t).view.set ↔ ∀ a : Fin 2, win2_7.index t a * S4096x1.size a ≤ (i a).val ∧ (i a).val < win2_7.index t a * S4096x1.size a + S4096x1.size a := by
  show i ∈ ((View.whole main_v19).slice (win2_7.rect t)).set ↔ _
  rw [View.set_slice_whole, Rect.mem_set_unit]
  exact Iff.rfl

/-- Every row of the result is in some point's block: row r in block r / 4096. -/
theorem cover (i : S16384x1.Idx) : ∃ t : Fin cfg2.N, (cfg2.win 7).flush t = true ∧ i ∈ ((cfg2.win 7).blk t).view.set := by
  have hi0 : (i 0).val < 16384 := (i 0).isLt
  have hi1 : (i 1).val < 1 := (i 1).isLt
  have hN : cfg2.N = 4 := N_2
  obtain ⟨t, ht⟩ : ∃ t : Fin cfg2.N, t.val = (i 0).val / 4096 := ⟨⟨(i 0).val / 4096, by rw [hN]; omega⟩, rfl⟩
  obtain ⟨-, -, -, -, -, -, -, -, -, -, -, -, e4, e5⟩ := index_facts t
  refine ⟨t, flush2_7 t, ?_⟩
  rw [mem_blk]
  intro a
  match a with
  | ⟨0, _⟩ => show win2_7.index t (0 : Fin 2) * 4096 ≤ (i 0).val ∧ (i 0).val < win2_7.index t (0 : Fin 2) * 4096 + 4096; rw [e4, ht]; omega
  | ⟨1, _⟩ => show win2_7.index t (1 : Fin 2) * 1 ≤ (i 1).val ∧ (i 1).val < win2_7.index t (1 : Fin 2) * 1 + 1; rw [e5]; omega

/-- The array the stage leaves: the score of the arrays it found. -/
theorem final (c : Dev nD) : (dat2 V c).arrAt 7 cfg2.N = result V c :=
  (dat2 V c).arrAt_eq_of_cover 7 _ (fun t _ => flushed_eq V c t) cover

end Cert.GroupScore.ScoreRows

end
-- ==== Proof.Value.lean ====
/-
  The whole computation as one function of the nine arguments.

  User rows: each user's item rows averaged over the items the user touched (count of positive entries, at least one).
  Group rows: each group's user rows averaged with the group's membership weights (divided by their plain sum).
  The two index arrays pick a group row and an item row per example — a negative index first moved up by the table's
  extent — and the scoring head turns each pair into one number.
-/
import proofs.«160768_j89120571392346_2_alg».proof.Proof.Gen.KernelIdeal
import proofs.«160768_j89120571392346_2_alg».proof.Proof.Spec

noncomputable section

namespace Cert.GroupScore

open Idealize.ShloMosaic Cert.KernelIdeal Cert.KernelIdeal.Facts₀

/-- A row number with the table's extent `n` added where it is negative, laid out as a column: how an index array
    is normalised before rows are gathered with it. -/
def wrapIdx (n : BitVec 32) (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 n))) x)

/-- The scores: of the gathered group rows and item rows, under the two halves of the first weight matrix. -/
def value (a0 : S10000x64.Idx → EReal) (a1 : S10000x10000.Idx → EReal) (a2 : S5000x10000.Idx → EReal)
    (a3 : S128x8.Idx → EReal) (a4 : S8.Idx → EReal) (a5 : S8x1.Idx → EReal) (a6 : S1.Idx → EReal)
    (a7 a8 : IVec S16384 32) : S16384x1.Idx → EReal :=
  score
    (Host.gather gather_S5000x64_S16384x1_S16384x64_1_0_n_n_0_1_164 (meanBySum a2 (meanByCount a1 a0)) (wrapIdx 5000#32 a7))
    (Host.gather gather_S10000x64_S16384x1_S16384x64_1_0_n_n_0_1_164 a0 (wrapIdx 10000#32 a8))
    (extractStridedSlice S64x8 ![0, 0] a3 slices_S128x8_S64x8_0_0)
    (extractStridedSlice S64x8 ![64, 0] a3 slices_S128x8_S64x8_64_0) a4 a5 a6

end Cert.GroupScore

end
-- ==== Proof.KernelRun.lean ====
/-
  The idealized program's run, read at its result.

  The run of the five segments (the narrowing of the item rows, the user-row stage, the group-row stage, the index
  arithmetic with the two gathers and the two slices of the first weight matrix, the scoring stage) ends with every
  buffer at the fold of the segments over the launch memory. Read at the result buffer, the fold is: the scoring
  stage's array (the score of what that stage found), found at the gathers of the group rows (the second stage's
  array, over the first stage's array) and of the item rows; every argument is still as launched when it is read.
-/
import proofs.«160768_j89120571392346_2_alg».proof.Proof.Gen.KernelIdeal.Frame
import proofs.«160768_j89120571392346_2_alg».proof.Proof.UserRows
import proofs.«160768_j89120571392346_2_alg».proof.Proof.GroupRows
import proofs.«160768_j89120571392346_2_alg».proof.Proof.ScoreRows
import proofs.«160768_j89120571392346_2_alg».proof.Proof.Value
import Idealize.ShloMosaic.Lib.StableHlo.Run

set_option maxRecDepth 16384

noncomputable section

namespace Cert.GroupScore.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The run, with every buffer read at the end -/

set_option backward.isDefEq.respectTransparency.types false in
/-- Every weakly fair execution terminates, and every buffer that outlives the kernels ends at the fold of the five
    segments over the launch memory. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! ## Arguments are still as launched wherever a segment reads them -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl

/-- The item rows narrowed to the shorter float format are, on the extended reals, the item rows. -/
theorem W1_v0 (c : Dev nD) :
    (W1 m ρ c (Proc.devRef .tc main_v0) : S10000x64.Idx → EReal) = (m ((c : Thread nD τ).loc main_arg0) : S10000x64.Idx → EReal) := by
  show StableHlo.after hostOps0 (W0 m ρ c) (Proc.devRef .tc main_v0) = _
  after_results <;> rfl

theorem W2_arg2 (c : Dev nD) : W2 m ρ c (Proc.devRef .tc main_arg2) = m ((c : Thread nD τ).loc main_arg2) :=
  (W2_of_ne m ρ c main_arg2 (by decide)).trans (W1_arg2 m ρ c)

theorem W3_arg0 (c : Dev nD) : W3 m ρ c (Proc.devRef .tc main_arg0) = m ((c : Thread nD τ).loc main_arg0) :=
  (W3_of_ne m ρ c main_arg0 (by decide)).trans ((W2_of_ne m ρ c main_arg0 (by decide)).trans (W1_arg0 m ρ c))
theorem W3_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_arg3 m ρ c))
theorem W3_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_arg4 m ρ c))
theorem W3_arg5 (c : Dev nD) : W3 m ρ c (Proc.devRef .tc main_arg5) = m ((c : Thread nD τ).loc main_arg5) :=
  (W3_of_ne m ρ c main_arg5 (by decide)).trans ((W2_of_ne m ρ c main_arg5 (by decide)).trans (W1_arg5 m ρ c))
theorem W3_arg6 (c : Dev nD) : W3 m ρ c (Proc.devRef .tc main_arg6) = m ((c : Thread nD τ).loc main_arg6) :=
  (W3_of_ne m ρ c main_arg6 (by decide)).trans ((W2_of_ne m ρ c main_arg6 (by decide)).trans (W1_arg6 m ρ c))
theorem W3_arg7 (c : Dev nD) : W3 m ρ c (Proc.devRef .tc main_arg7) = m ((c : Thread nD τ).loc main_arg7) :=
  (W3_of_ne m ρ c main_arg7 (by decide)).trans ((W2_of_ne m ρ c main_arg7 (by decide)).trans (W1_arg7 m ρ c))
theorem W3_arg8 (c : Dev nD) : W3 m ρ c (Proc.devRef .tc main_arg8) = m ((c : Thread nD τ).loc main_arg8) :=
  (W3_of_ne m ρ c main_arg8 (by decide)).trans ((W2_of_ne m ρ c main_arg8 (by decide)).trans (W1_arg8 m ρ c))

/-! ## The first two stages' arrays -/

/-- After the first stage its result array holds the user rows of the launch arguments. -/
theorem userRows (c : Dev nD) :
    (W2 m ρ c (Proc.devRef .tc main_v1) : S10000x64.Idx → EReal)
      = meanByCount (m ((c : Thread nD τ).loc main_arg1) : S10000x10000.Idx → EReal) (m ((c : Thread nD τ).loc main_arg0) : S10000x64.Idx → EReal) :=
  (W2_arr m ρ c 2).trans ((UserRows.final (V1 m ρ) c).trans
    (congrArg₂ (meanByCount (R := 10000) (K := 10000) (N := 64)) (W1_arg1 m ρ c) (W1_v0 m ρ c)))

/-- After the second stage its result array holds the group rows of the launch arguments. -/
theorem groupRows (c : Dev nD) :
    (W3 m ρ c (Proc.devRef .tc main_v2) : S5000x64.Idx → EReal)
      = meanBySum (m ((c : Thread nD τ).loc main_arg2) : S5000x10000.Idx → EReal)
          (meanByCount (m ((c : Thread nD τ).loc main_arg1) : S10000x10000.Idx → EReal) (m ((c : Thread nD τ).loc main_arg0) : S10000x64.Idx → EReal)) :=
  (W3_arr m ρ c 2).trans ((GroupRows.final (V2 m ρ) c).trans
    (congrArg₂ (meanBySum (R := 5000) (K := 10000) (N := 64)) (W2_arg2 m ρ c) (userRows m ρ c)))

/-! ## What the scoring stage finds: the host operations between the second and the third stage, from any contents -/

section Entry
variable (W : Valuation τ sig (Elt Ideal))

theorem entry_v9 : (StableHlo.after hostOps2 W (Proc.devRef .tc main_v9) : S16384x64.Idx → EReal)
    = Host.gather gather_S5000x64_S16384x1_S16384x64_1_0_n_n_0_1_164 (W (Proc.devRef .tc main_v2) : S5000x64.Idx → EReal)
        (wrapIdx 5000#32 (W (Proc.devRef .tc main_arg7))) := by
  after_results <;> rfl

theorem entry_v16 : (StableHlo.after hostOps2 W (Proc.devRef .tc main_v16) : S16384x64.Idx → EReal)
    = Host.gather gather_S10000x64_S16384x1_S16384x64_1_0_n_n_0_1_164 (W (Proc.devRef .tc main_arg0) : S10000x64.Idx → EReal)
        (wrapIdx 10000#32 (W (Proc.devRef .tc main_arg8))) := by
  after_results <;> rfl

theorem entry_v17 : (StableHlo.after hostOps2 W (Proc.devRef .tc main_v17) : S64x8.Idx → EReal)
    = extractStridedSlice S64x8 ![0, 0] (W (Proc.devRef .tc main_arg3) : S128x8.Idx → EReal) slices_S128x8_S64x8_0_0 := by
  after_results <;> rfl

theorem entry_v18 : (StableHlo.after hostOps2 W (Proc.devRef .tc main_v18) : S64x8.Idx → EReal)
    = extractStridedSlice S64x8 ![64, 0] (W (Proc.devRef .tc main_arg3) : S128x8.Idx → EReal) slices_S128x8_S64x8_64_0 := by
  after_results <;> rfl

theorem entry_arg4 : StableHlo.after hostOps2 W (Proc.devRef .tc main_arg4) = W (Proc.devRef .tc main_arg4) := by
  after_results <;> rfl
theorem entry_arg5 : StableHlo.after hostOps2 W (Proc.devRef .tc main_arg5) = W (Proc.devRef .tc main_arg5) := by
  after_results <;> rfl
theorem entry_arg6 : StableHlo.after hostOps2 W (Proc.devRef .tc main_arg6) = W (Proc.devRef .tc main_arg6) := by
  after_results <;> rfl

end Entry

/-! ## The result -/

/-- The result buffer after the run: the value of the launch arguments. -/
theorem result_eq (c : Dev nD) :
    (W5 m ρ c (Proc.devRef .tc main_v19) : S16384x1.Idx → EReal) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W5_arr m ρ c 7).trans ((ScoreRows.final (V4 m ρ) c).trans ?_)
  show score (StableHlo.after hostOps2 (W3 m ρ c) (Proc.devRef .tc main_v9) : S16384x64.Idx → EReal)
      (StableHlo.after hostOps2 (W3 m ρ c) (Proc.devRef .tc main_v16) : S16384x64.Idx → EReal)
      (StableHlo.after hostOps2 (W3 m ρ c) (Proc.devRef .tc main_v17) : S64x8.Idx → EReal)
      (StableHlo.after hostOps2 (W3 m ρ c) (Proc.devRef .tc main_v18) : S64x8.Idx → EReal)
      (StableHlo.after hostOps2 (W3 m ρ c) (Proc.devRef .tc main_arg4) : S8.Idx → EReal)
      (StableHlo.after hostOps2 (W3 m ρ c) (Proc.devRef .tc main_arg5) : S8x1.Idx → EReal)
      (StableHlo.after hostOps2 (W3 m ρ c) (Proc.devRef .tc main_arg6) : S1.Idx → EReal) = _
  rw [entry_v9, entry_v16, entry_v17, entry_v18, entry_arg4, entry_arg5, entry_arg6, groupRows m ρ c,
    W3_arg0 m ρ c, W3_arg3 m ρ c, W3_arg4 m ρ c, W3_arg5 m ρ c, W3_arg6 m ρ c, W3_arg7 m ρ c, W3_arg8 m ρ c]
  rfl

/-- THE RUN, READ: every weakly fair execution terminates with the result buffer at the value of the launch arguments
    and the arguments unchanged. -/
theorem run : θ_run defs (onTc (τ := τ) (main (F := Ideal))) ⟨m, fun _ => 0, ρ⟩ (fun r => ∀ c : Dev nD,
      r.2.mem ((c.tc : Thread nD τ).loc main_v19) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v19 (by decide))).trans (result_eq m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c)⟩)
    (run_all m ρ)

end Cert.GroupScore.KernelRun

end
-- ==== Proof.RefValue.lean ====
/-
  The reference program's stages are the same functions.

  Read one operation at a time, the reference computes: the user rows (a product of the whole matrices divided by the
  clamped count of positive entries, laid out as a column and broadcast along the lanes); the group rows (a product
  divided by the broadcast row sums); the two gathers with the same normalised indices; and the scoring head, with
  the two gathered arrays joined side by side and met by the whole first weight matrix. A sum over the 128 joined
  lanes is the sum over the first 64 plus the sum over the last 64, which are the two halves' sums; the host's
  `1 / (1 + exp (-x))` is the logistic function.
-/
import proofs.«160768_j89120571392346_2_alg».proof.Proof.Gen.ReferenceIdeal.Read
import proofs.«160768_j89120571392346_2_alg».proof.Proof.Value
import Idealize.ShloMosaic.Lib.IdealHost
import Idealize.ShloMosaic.Lib.Pipeline.Value

noncomputable section

open scoped BigOperators

namespace Cert.GroupScore.RefValue

open Idealize.ShloMosaic Idealize.ShloMosaic.ValueIdx Cert.ReferenceIdeal Cert.ReferenceIdeal.Read Cert.ReferenceIdeal.Facts₀

/-- Two indices of a rank-2 array with the same coordinates are the same index. -/
theorem idx2_ext {n0 n1 : Nat} (j j' : (⟨2, ![n0, n1]⟩ : Shape).Idx) (h0 : (j 0).val = (j' 0).val) (h1 : (j 1).val = (j' 1).val) :
    j = j' :=
  funext fun a => Fin.ext (by match a with | ⟨0, _⟩ => exact h0 | ⟨1, _⟩ => exact h1)

/-! ## User rows -/

theorem userRows_ref (x0 : S10000x64.Idx → EReal) (x1 : S10000x10000.Idx → EReal) :
    val_main_v9 (F := Ideal) x0 x1 = meanByCount x1 x0 := by
  funext i
  obtain ⟨u, d, rfl⟩ : ∃ (u : Fin 10000) (d : Fin 64), i = ix2 u d := ⟨i 0, i 1, eq_ix2 i⟩
  rw [val_main_v9_apply, val_main_v6_apply, val_main_v8_apply, val_main_v7_apply, val_main_v5_apply, val_main_v3_apply,
    val_main_v4_apply]
  unfold meanByCount
  refine congrArg₂ Ideal.div (Finset.sum_congr rfl fun k _ => ?_) (congrArg₂ max ?_ rfl)
  · exact congrArg₂ (· * ·) (congrArg x1 (idx2_ext _ _ rfl rfl)) (congrArg x0 (idx2_ext _ _ rfl rfl))
  · rw [show val_main_cst_0 (F := Ideal) _ = 0 from Ideal.ofBits_zero_f32, zero_add]
    refine Finset.sum_congr rfl fun k _ => ?_
    rw [val_main_v2_apply, val_main_v1_apply, val_main_v0_apply, val_main_cst_apply]
    show posBit (x1 _) = posBit (x1 _)
    exact congrArg (fun z => posBit (x1 z)) (idx2_ext _ _ rfl rfl)

/-! ## Group rows -/

theorem groupRows_ref (x0 : S10000x64.Idx → EReal) (x1 : S10000x10000.Idx → EReal) (x2 : S5000x10000.Idx → EReal) :
    val_main_v14 (F := Ideal) x0 x1 x2 = meanBySum x2 (val_main_v9 (F := Ideal) x0 x1) := by
  funext i
  obtain ⟨g, d, rfl⟩ : ∃ (g : Fin 5000) (d : Fin 64), i = ix2 g d := ⟨i 0, i 1, eq_ix2 i⟩
  rw [val_main_v14_apply, val_main_v11_apply, val_main_v13_apply, val_main_v12_apply, val_main_v10_apply]
  unfold meanBySum
  refine congrArg₂ Ideal.div (Finset.sum_congr rfl fun k _ => ?_) ?_
  · exact congrArg₂ (· * ·) (congrArg x2 (idx2_ext _ _ rfl rfl)) (congrArg (val_main_v9 (F := Ideal) x0 x1) (idx2_ext _ _ rfl rfl))
  · rw [show val_main_cst_2 (F := Ideal) _ = 0 from Ideal.ofBits_zero_f32, zero_add]
    exact Finset.sum_congr rfl fun k _ => congrArg x2 (idx2_ext _ _ rfl rfl)

/-! ## The scoring head -/

/-- A hidden unit of the reference: the joined 128 lanes against the whole first weight matrix are the two halves'
    sums. -/
theorem hidden_ref (x0 : S10000x64.Idx → EReal) (x1 : S10000x10000.Idx → EReal) (x2 : S5000x10000.Idx → EReal)
    (x3 : S128x8.Idx → EReal) (x4 : S8.Idx → EReal) (x5 : S8x1.Idx → EReal) (x6 : S1.Idx → EReal) (x7 x8 : IVec S16384 32) (b : Fin 16384) (j : Fin 8) :
    val_main_v34 (F := Ideal) x0 x1 x2 x3 x4 x7 x8 (ix2 b j)
      = hidden (val_main_v21 (F := Ideal) x0 x1 x2 x7) (val_main_v28 (F := Ideal) x0 x8)
          (extractStridedSlice Cert.KernelIdeal.S64x8 ![0, 0] x3 Cert.KernelIdeal.Facts₀.slices_S128x8_S64x8_0_0)
          (extractStridedSlice Cert.KernelIdeal.S64x8 ![64, 0] x3 Cert.KernelIdeal.Facts₀.slices_S128x8_S64x8_64_0) x4 b j := by
  rw [val_main_v34_apply, val_main_v33_apply, val_main_v30_apply, val_main_v32_apply, val_main_v31_apply,
    val_main_call0_v0_apply]
  unfold hidden
  refine congrArg₂ max (congrArg₂ (· + ·) ?_ ?_) rfl
  · refine (Fin.sum_univ_add (M := EReal) (a := 64) (b := 64)
      (fun k => val_main_v29 (F := Ideal) x0 x1 x2 x7 x8 (lidx_main_v30 (ix2 b j) k) * x3 (ridx_main_v30 (ix2 b j) k))).trans ?_
    refine congrArg₂ (· + ·) (Finset.sum_congr rfl fun k _ => ?_) (Finset.sum_congr rfl fun k _ => ?_)
    · refine congrArg₂ (· * ·) ?_ ?_
      · unfold val_main_v29
        exact concatenate_pair_apply_left (t := S16384x128) (s₁ := S16384x64) (s₂ := S16384x64) (1 : Fin 2) _ _
          concatenates_S16384x64_S16384x64_S16384x128_d1 _ rfl (ix2 b k)
          (fun a => match a with | ⟨0, _⟩ => rfl | ⟨1, _⟩ => rfl)
      · exact (extractStridedSlice_apply ![0, 0] x3 Cert.KernelIdeal.Facts₀.slices_S128x8_S64x8_0_0 (ix2 k j) _
          (fun a => match a with
            | ⟨0, _⟩ => by show k.val = 0 + k.val; omega
            | ⟨1, _⟩ => by show j.val = 0 + j.val; omega)).symm
    · refine congrArg₂ (· * ·) ?_ ?_
      · unfold val_main_v29
        exact concatenate_pair_apply_right (t := S16384x128) (s₁ := S16384x64) (s₂ := S16384x64) (1 : Fin 2) _ _
          concatenates_S16384x64_S16384x64_S16384x128_d1 _ rfl rfl (ix2 b k)
          (fun a => match a with
            | ⟨0, _⟩ => fun _ => rfl
            | ⟨1, _⟩ => fun hne => absurd (Fin.ext rfl) hne)
          (by show k.val + 64 = 64 + k.val; omega)
      · exact (extractStridedSlice_apply ![64, 0] x3 Cert.KernelIdeal.Facts₀.slices_S128x8_S64x8_64_0 (ix2 k j) _
          (fun a => match a with
            | ⟨0, _⟩ => by show 64 + k.val = 64 + k.val; rfl
            | ⟨1, _⟩ => by show j.val = 0 + j.val; omega)).symm
  · exact congrArg x4 (funext fun a => Fin.ext (by match a with | ⟨0, _⟩ => rfl))

/-- A row's score spelt out: one over one plus the exponential of minus the row's weighted hidden units plus bias. -/
theorem score_apply {B : Nat} (g h : (⟨2, ![B, 64]⟩ : Shape).Idx → EReal) (wa wb : (⟨2, ![64, 8]⟩ : Shape).Idx → EReal)
    (b1 : (⟨1, ![8]⟩ : Shape).Idx → EReal) (w2 : (⟨2, ![8, 1]⟩ : Shape).Idx → EReal) (b2 : (⟨1, ![1]⟩ : Shape).Idx → EReal) (b : Fin B) :
    score g h wa wb b1 w2 b2 (ix2 b (0 : Fin 1))
      = Ideal.div 1 (1 + Ideal.exp (-((∑ j : Fin 8, hidden g h wa wb b1 b j * w2 (ix2 j (0 : Fin 1))) + b2 (ix1 (0 : Fin 1))))) := rfl

/-- The reference's last stage is the score of its two gathered arrays under the two halves of the first weight
    matrix. -/
theorem score_ref (x0 : S10000x64.Idx → EReal) (x1 : S10000x10000.Idx → EReal) (x2 : S5000x10000.Idx → EReal)
    (x3 : S128x8.Idx → EReal) (x4 : S8.Idx → EReal) (x5 : S8x1.Idx → EReal) (x6 : S1.Idx → EReal) (x7 x8 : IVec S16384 32) :
    val_main_v44 (F := Ideal) x0 x1 x2 x3 x4 x5 x6 x7 x8
      = score (val_main_v21 (F := Ideal) x0 x1 x2 x7) (val_main_v28 (F := Ideal) x0 x8)
          (extractStridedSlice Cert.KernelIdeal.S64x8 ![0, 0] x3 Cert.KernelIdeal.Facts₀.slices_S128x8_S64x8_0_0)
          (extractStridedSlice Cert.KernelIdeal.S64x8 ![64, 0] x3 Cert.KernelIdeal.Facts₀.slices_S128x8_S64x8_64_0) x4 x5 x6 := by
  funext i
  obtain ⟨b, q, rfl⟩ : ∃ (b : Fin 16384) (q : Fin 1), i = ix2 b q := ⟨i 0, i 1, eq_ix2 i⟩
  obtain rfl : q = 0 := Subsingleton.elim _ _
  rw [val_main_v44_apply, val_main_v43_apply, val_main_v42_apply, val_main_v41_apply, val_main_v40_apply, val_main_v39_apply,
    val_main_v38_apply, val_main_v35_apply, val_main_v37_apply, val_main_v36_apply]
  rw [show val_main_cst_7 (F := Ideal) _ = 1 from Ideal.ofBits_one_f32, show val_main_cst_6 (F := Ideal) _ = 1 from Ideal.ofBits_one_f32]
  refine Eq.trans ?_ (score_apply _ _ _ _ _ _ _ b).symm
  simp only [Ideal.hostDivf_def, Ideal.addf_def, Ideal.hostUnary_exp_def, Ideal.hostNegf_def, Ideal.negf_def]
  refine congrArg (fun z : EReal => Ideal.div 1 (1 + Ideal.exp (-z))) ?_
  refine congrArg₂ (· + ·) (Finset.sum_congr rfl fun j _ => congrArg₂ (· * ·) ?_ ?_) ?_
  · have e : lidx_main_v35 (ix2 b (0 : Fin 1)) j = ix2 b j := idx2_ext _ _ rfl rfl
    rw [e]
    exact hidden_ref x0 x1 x2 x3 x4 x5 x6 x7 x8 b j
  · exact congrArg x5 (idx2_ext _ _ rfl rfl)
  · exact congrArg x6 (funext fun a => Fin.ext (by match a with | ⟨0, _⟩ => rfl))

/-! ## The whole reference -/

/-- The reference's result term is the value of its arguments. -/
theorem ref_value (x0 : S10000x64.Idx → EReal) (x1 : S10000x10000.Idx → EReal) (x2 : S5000x10000.Idx → EReal)
    (x3 : S128x8.Idx → EReal) (x4 : S8.Idx → EReal) (x5 : S8x1.Idx → EReal) (x6 : S1.Idx → EReal) (x7 x8 : IVec S16384 32) :
    val_main_v44 (F := Ideal) x0 x1 x2 x3 x4 x5 x6 x7 x8 = value x0 x1 x2 x3 x4 x5 x6 x7 x8 := by
  have hG : val_main_v21 (F := Ideal) x0 x1 x2 x7
      = Host.gather Cert.KernelIdeal.gather_S5000x64_S16384x1_S16384x64_1_0_n_n_0_1_164 (meanBySum x2 (meanByCount x1 x0)) (wrapIdx 5000#32 x7) := by
    unfold val_main_v21
    rw [groupRows_ref, userRows_ref]
    rfl
  have hI : val_main_v28 (F := Ideal) x0 x8
      = Host.gather Cert.KernelIdeal.gather_S10000x64_S16384x1_S16384x64_1_0_n_n_0_1_164 x0 (wrapIdx 10000#32 x8) := rfl
  rw [score_ref, hG, hI]
  rfl

end Cert.GroupScore.RefValue

end
-- ==== Proof.lean ====
/-
  Group scores: the tiled three-stage computation and the plain one are the same function on the extended reals.

  Both programs compute, from item rows E, a user-item matrix A, a group-user matrix M, weights and two index arrays:
    user rows   U = (A · E) / max(#positive entries of the row of A, 1),
    group rows  G = (M · U) / (row sum of M),
    score(b)    = logistic( relu( [G[g(b)], E[i(b)]] · W1 + b1 ) · W2 + b2 ).
  The tiled program walks A and M in tiles of 200 rows and the examples in tiles of 4096, narrows matrix operands to a
  shorter float format (the identity on the extended reals), and meets the two gathered rows with the two halves of W1
  separately; the plain program joins the rows first. The three stage arrays are read off the tiled program's run
  (one tile lemma and one cover of the rows per stage), the plain program's stages are read one operation at a time,
  and the two meet at one function of the nine arguments: a sum over 128 joined lanes is the sum of its two halves, and
  1 / (1 + exp (-x)) is the logistic function. No finiteness of the inputs is used.
-/
import proofs.«160768_j89120571392346_2_alg».proof.Defs
import proofs.«160768_j89120571392346_2_alg».proof.Proof.Gen.Kernel
import proofs.«160768_j89120571392346_2_alg».proof.Proof.Gen.Kernel.Skeleton
import proofs.«160768_j89120571392346_2_alg».proof.Proof.Gen.Kernel.Launch
import proofs.«160768_j89120571392346_2_alg».proof.Proof.Gen.Kernel.Points
import proofs.«160768_j89120571392346_2_alg».proof.Proof.Gen.Kernel.Frame
import proofs.«160768_j89120571392346_2_alg».proof.Proof.Gen.KernelIdeal
import proofs.«160768_j89120571392346_2_alg».proof.Proof.Gen.KernelIdeal.Skeleton
import proofs.«160768_j89120571392346_2_alg».proof.Proof.Gen.KernelIdeal.Launch
import proofs.«160768_j89120571392346_2_alg».proof.Proof.Gen.KernelIdeal.Points
import proofs.«160768_j89120571392346_2_alg».proof.Proof.Gen.KernelIdeal.Frame
import proofs.«160768_j89120571392346_2_alg».proof.Proof.Gen.ReferenceIdeal
import proofs.«160768_j89120571392346_2_alg».proof.Proof.Gen.Pre_finite_inputs
import proofs.«160768_j89120571392346_2_alg».proof.Proof.Gen.ReferenceIdeal.Run
import proofs.«160768_j89120571392346_2_alg».proof.Proof.Gen.ReferenceIdeal.Read
import proofs.«160768_j89120571392346_2_alg».proof.Proof.KernelRun
import proofs.«160768_j89120571392346_2_alg».proof.Proof.RefValue
import Idealize.ShloMosaic.Adequacy
import Idealize.ShloMosaic.Init

noncomputable section

namespace Cert.Proof

open Idealize.ShloMosaic Idealize.SL.Sem

/-- The word-level program runs and leaves its arguments alone. -/
theorem frame_kernel : Cert.frame_Kernel := fun m ρ _ => Cert.Kernel.Gen.frame m ρ

/-- So does the same program read on the extended reals. -/
theorem frame_kernelIdeal : Cert.frame_KernelIdeal := fun m ρ _ => Cert.KernelIdeal.Gen.frame m ρ

/-- The plain program's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the tiled program was read on the extended reals. -/
theorem preserves : Cert.preserves_Kernel_KernelIdeal := trivial

/-- Both programs end with the value of their (agreeing) arguments in the result. -/
theorem algebraic : Cert.algebraic_KernelIdeal_ReferenceIdeal := by
  intro m ρ m' ρ' _ hagree
  refine ⟨fun c => Cert.GroupScore.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.GroupScore.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  refine (Cert.ReferenceIdeal.Read.val_main_v44_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans ?_
  refine (Cert.GroupScore.RefValue.ref_value (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans ?_
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
